-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x4096 : Shape := ⟨2, ![16384, 4096]⟩
abbrev S512x4096 : Shape := ⟨2, ![512, 4096]⟩

abbrev nBuf : Space → Nat
  | .hbm => 4
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S16384x4096, .f32⟩
  | .hbm, ⟨3, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x4096x4096_S16384x4096 : S4x4096x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S4x4096x4096 : Shape := ⟨3, ![4, 4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)

variable [Facts₀]

class Facts : Prop extends Facts₀ where

variable [Facts]
-- ==== Proof.Silu.lean ====
/-
  The function both programs compute: x · σ(x), lane by lane, where σ(x) = 1 / (1 + e^(-x)) is the logistic
  function on the extended reals (σ(-∞) = 0, σ(+∞) = 1). Nothing here mentions a program: the function, its
  behaviour under a re-layout of the array, and the host's spelling of σ at one element.
-/
import Idealize.ShloMosaic.PureOps.Ideal
import Idealize.ShloMosaic.PureOps.IdealRules
import Idealize.ShloMosaic.Lib.Pipeline.Value

noncomputable section

namespace Cert.Silu

open Idealize.ShloMosaic

/-- x · σ(x) at every lane of an array of extended reals, whatever the lanes are indexed by. -/
def silu {ι : Type} (y : ι → EReal) : ι → EReal := fun j => y j * Ideal.logistic (y j)

theorem silu_apply {ι : Type} (y : ι → EReal) (j : ι) : silu y j = y j * Ideal.logistic (y j) := rfl

/-- A lane-by-lane function does not care how the lanes are laid out: viewing an array in another shape with the
    same row-major order and then applying it is applying it and then viewing the result in that shape. -/
theorem shapeCast_silu {s t : Shape} (y : s.Idx → EReal) (h : s.ShapeCasts t) :
    shapeCast t (silu y) h = silu (shapeCast t y h) := rfl

/-- The 32-bit pattern of 1.0 denotes the number 1. -/
theorem one_f32 : Ideal.ofBits .f32 0x3F800000#32 = 1 := IdealRules.sign_bit.ideal_onePat .f32

/-- The host writes σ out as a quotient, 1 / (1 + e^(-a)), with its own division, exponential and negation and the
    pattern of 1.0 for both ones. On the extended reals that quotient IS σ(a), at every a, the infinities included:
    σ is defined as this quotient, and the host's operations are the same functions as the device's. So no
    finiteness of a is used. -/
theorem host_quotient (a : Ideal .f32) :
    FloatOps.mulf a (FloatOps.hostDivf (FloatOps.ofBits .f32 0x3F800000#32)
        (FloatOps.addf (FloatOps.ofBits .f32 0x3F800000#32) (FloatOps.hostUnary .exp (FloatOps.hostNegf a))))
      = a * Ideal.logistic a := by
  simp only [Ideal.mulf_def, Ideal.hostDivf_def, Ideal.addf_def, Ideal.hostUnary_exp_def, Ideal.hostNegf_def,
    Ideal.negf_def, Ideal.ofBits_def, one_f32]
  rfl

/-- The device's one operation for σ, followed by the product, at one element. -/
theorem device_product (a : Ideal .f32) : FloatOps.mulf a (FloatOps.logistic a) = a * Ideal.logistic a := rfl

end Cert.Silu

end
-- ==== Proof.ReferenceSilu.lean ====
/-
  The reference computes x · (1 / (1 + e^(-x))) lane by lane over the whole [4, 4096, 4096] array, in nine host
  operations. Read at an index its last stage is x · σ(x) there: the quotient is σ (Silu.lean, `host_quotient`).
-/
import proofs.«111017_j1546188226841_2_alg».proof.Proof.Gen.ReferenceIdeal.Read
import proofs.«111017_j1546188226841_2_alg».proof.Proof.Silu

noncomputable section

namespace Cert.ReferenceIdeal.RefSilu

open Cert.ReferenceIdeal Cert.ReferenceIdeal.Read Idealize.ShloMosaic

/-- The reference's result, as a function of its argument array, is x · σ(x) at every index: each of the nine stages
    read at the index (the two broadcast ones are the pattern of 1.0 everywhere), then the quotient recognised as σ. -/
theorem result_is_silu (x : (⟨S4x4096x4096, .f32⟩ : BufTy).Contents (Elt Ideal)) :
    val_main_v6 (F := Ideal) x = Cert.Silu.silu x := by
  funext i
  rw [val_main_v6_apply, val_main_v5_apply, val_main_v4_apply, val_main_cst_0_apply, val_main_v3_apply,
    val_main_v2_apply, val_main_cst_apply, val_main_v1_apply, val_main_v0_apply]
  exact Cert.Silu.host_quotient (x i)

end Cert.ReferenceIdeal.RefSilu

end
-- ==== Proof.KernelBlocks.lean ====
/-
  The kernel views the [4, 4096, 4096] array as 16384 rows of 4096 lanes and walks them in 32 steps of 512 rows.
  At step t it loads rows 512·t … 512·t + 511, forms x · σ(x) lane by lane, and writes the result back over the same
  rows of the output array. Here: what one step writes back is rows 512·t … 512·t + 511 of x · σ(x) of the whole
  16384 × 4096 array; the 32 row bands cover every row; so after the last step the output array IS x · σ(x) of the
  input array, whatever order the bands are written in.
-/
import proofs.«111017_j1546188226841_2_alg».proof.Proof.Gen.KernelIdeal.Frame
import proofs.«111017_j1546188226841_2_alg».proof.Proof.Silu
import Idealize.ShloMosaic.Lib.Pipeline.Value

set_option maxRecDepth 16384

noncomputable section

namespace Cert.KernelIdeal.SiluValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The body loads and stores its whole 512 × 4096 buffer: the rectangle starts at the origin. -/
theorem origin : (![0, 0] : Fin 2 → Nat) = fun _ => 0 := funext fun a => by fin_cases a <;> rfl

/-- The value the body stores is x · σ(x) of the block it loaded: the one re-layout in between is to the same shape. -/
theorem stored_is_silu (x0 : Vec Ideal S512x4096 .f32) : k0_pay1 (F := Ideal) x0 = Cert.Silu.silu x0 := by
  unfold k0_pay1
  rw [shapeCast_self]
  rfl

/-- Where the two windows sit at step t: the input band and the output band are the same rows (band t of 32), and a
    band spans all 4096 lanes. -/
theorem band_facts : ∀ t : Fin cfg0.N,
    win0_0.index t (0 : Fin 2) = win0_1.index t (0 : Fin 2)
    ∧ win0_0.index t (1 : Fin 2) = win0_1.index t (1 : Fin 2)
    ∧ win0_1.index t (0 : Fin 2) ≤ 31
    ∧ win0_1.index t (1 : Fin 2) = 0 :=
  (by decide +kernel : ∀ t : Fin grid0.N, _)

/-- Every one of the 32 row bands is some step's. -/
theorem band_onto : ∀ q : Fin 32, ∃ t : Fin cfg0.N, win0_1.index t = ![q.val, 0] :=
  (by decide +kernel : ∀ q : Fin 32, ∃ t : Fin grid0.N, win0_1.index t = ![q.val, 0])

/-- What step t writes back is band t of x · σ(x) of the input array as the region finds it. -/
theorem written_is_band (c : Dev nD) (t : Fin cfg0.N) :
    (dats m 0 c).flushed 1 t = ((cfg0.win 1).blk t).view.read (Elt Ideal) (Cert.Silu.silu (V m c main_v0)) := by
  show (cfg0.win 1).cut (grid0.coords t) ((dats m 0 c).after 1 t) = _
  rw [after0_1]
  unfold out0_1
  rw [View.canon_unit_zero origin]
  simp only [View.ld_unit_zero (S := S512x4096) origin]
  rw [stored_is_silu]
  obtain ⟨e0, e1, e2, e3⟩ := band_facts t
  funext j
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  show Cert.Silu.silu (V m c main_v0 : S16384x4096.Idx → EReal) (((cfg0.win 0).blk t).view.emb j)
    = Cert.Silu.silu (V m c main_v0 : S16384x4096.Idx → EReal) (((cfg0.win 1).blk t).view.emb j)
  rw [h0]

/-- An index of the 16384 × 4096 array lies in step t's band iff each coordinate is in the band's range. -/
theorem mem_band (t : Fin cfg0.N) (i : S16384x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v1).slice (win0_1.rect t)).set ↔ _
  rw [View.set_slice_whole, Rect.mem_set_unit]
  exact Iff.rfl

/-- Row r is in band r / 512: the bands cover the array. -/
theorem bands_cover (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := band_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_band]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the last step the output array is x · σ(x) of the input array as the region found it. -/
theorem region_result (c : Dev nD) : (dats m 0 c).arrAt 1 cfg0.N = Cert.Silu.silu (V m c main_v0) :=
  (dats m 0 c).arrAt_eq_of_cover 1 _ (fun t _ => written_is_band m c t) bands_cover

end Cert.KernelIdeal.SiluValue

end
-- ==== Proof.KernelRun.lean ====
/-
  Around its 32 steps the kernel's program does three things on the host: it views the [4, 4096, 4096] argument as
  16384 rows of 4096 lanes (the same elements in the same row-major order), copies that into the array the steps
  overwrite, and afterwards views the overwritten array as [4, 4096, 4096] again. A lane-by-lane function commutes
  with a change of view, and the two changes of view undo one another, so the program's result is x · σ(x) of the
  argument itself, index by index.
-/
import proofs.«111017_j1546188226841_2_alg».proof.Proof.KernelBlocks
import Idealize.ShloMosaic.Lib.StableHlo.Run

set_option maxRecDepth 16384

noncomputable section

namespace Cert.KernelIdeal.SiluValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The array the steps read is the argument viewed as 16384 rows. -/
theorem entry_is_rows (c : Dev nD) :
    (V m c main_v0 : S16384x4096.Idx → EReal)
      = shapeCast S16384x4096 (m ((c.tc : Thread nD τ).loc main_arg0)) shapeCasts_S4x4096x4096_S16384x4096 := by
  show StableHlo.after hostOps0 (fun b => m (c, b)) (Proc.devRef .tc main_v0) = _
  after_results
  rfl

/-- The program's result is the array the steps overwrote, viewed as [4, 4096, 4096]. -/
theorem result_is_view (c : Dev nD) :
    (Pipeline.afterTail₀ cfgs (dats m) 0 (V0 m) [hostOps1] c main_v2 : S4x4096x4096.Idx → EReal)
      = shapeCast S4x4096x4096 ((dats m 0 c).arrAt 1 cfg0.N) shapeCasts_S16384x4096_S4x4096x4096 := by
  unfold Pipeline.afterTail₀
  show StableHlo.after hostOps1 _ (Proc.devRef .tc main_v2) = _
  after_results
  rw [Pipeline.withArrays_arr spec0 launch0.win.arr_inj c _ _ 1]
  rfl

/-- The program's result is x · σ(x) of its argument: the steps leave x · σ(x) of the 16384-row view, and the view is
    undone. -/
theorem result_is_silu (c : Dev nD) :
    (Pipeline.afterTail₀ cfgs (dats m) 0 (V0 m) [hostOps1] c main_v2 : S4x4096x4096.Idx → EReal)
      = Cert.Silu.silu (m ((c.tc : Thread nD τ).loc main_arg0)) := by
  rw [result_is_view, region_result, entry_is_rows, Cert.Silu.shapeCast_silu]
  exact congrArg (Cert.Silu.silu (ι := S4x4096x4096.Idx))
    (shapeCast_shapeCast (m ((c.tc : Thread nD τ).loc main_arg0) : S4x4096x4096.Idx → EReal)
      shapeCasts_S4x4096x4096_S16384x4096 shapeCasts_S16384x4096_S4x4096x4096)

/-- Every weakly fair execution of the kernel's program terminates with its result at x · σ(x) of the argument and the
    argument unchanged. -/
theorem run : θ_run defs (onTc (τ := τ) (main (F := Ideal))) ⟨m, fun _ => 0, ρ⟩ fun r => ∀ c : Dev nD,
      r.2.mem ((c.tc : Thread nD τ).loc main_v2) = Cert.Silu.silu (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_is_silu m c),
       ((h c).2 main_arg0 (Pipeline.mem_restRefs_of main_arg0 (by decide) (by decide))).trans (W_main_arg0 m (dats m) c)⟩)
    (run_main m ρ)

end Cert.KernelIdeal.SiluValue

end
-- ==== Proof.lean ====
/-
  Kernel and reference both compute x · σ(x) over a [4, 4096, 4096] array of floats, where σ(x) = 1 / (1 + e^(-x))
  is the logistic function.

  The kernel views the array as 16384 rows of 4096 lanes, walks the rows 512 at a time, forms x · σ(x) in each band
  with one device operation for σ, and views the result as [4, 4096, 4096] again. The bands cover every row, a
  lane-by-lane function commutes with a change of view, and the two changes of view undo one another: its result is
  x · σ(x) of the argument, index by index (Proof/KernelBlocks.lean, Proof/KernelRun.lean).

  The reference spells σ out on the host as the quotient 1 / (1 + e^(-x)), with the pattern of 1.0 for both ones.
  On the extended reals σ IS that quotient at every point, -∞ and +∞ included (σ(-∞) = 0, σ(+∞) = 1), and the
  host's division, exponential and negation are the same functions as the device's (Proof/Silu.lean,
  Proof/ReferenceSilu.lean). So the two results are equal at every input; that the inputs are finite is not used.

  Nothing was rewritten when the kernel was read over the extended reals, so that conjunct is empty. Each program
  terminates without a fault and leaves its argument as it found it: for the two kernel programs by the generated
  frame, for the reference by its generated run.
-/
import proofs.«111017_j1546188226841_2_alg».proof.Defs
import proofs.«111017_j1546188226841_2_alg».proof.Proof.Gen.Kernel
import proofs.«111017_j1546188226841_2_alg».proof.Proof.Gen.Kernel.Skeleton
import proofs.«111017_j1546188226841_2_alg».proof.Proof.Gen.Kernel.Launch
import proofs.«111017_j1546188226841_2_alg».proof.Proof.Gen.Kernel.Points
import proofs.«111017_j1546188226841_2_alg».proof.Proof.Gen.Kernel.Frame
import proofs.«111017_j1546188226841_2_alg».proof.Proof.Gen.KernelIdeal
import proofs.«111017_j1546188226841_2_alg».proof.Proof.Gen.KernelIdeal.Skeleton
import proofs.«111017_j1546188226841_2_alg».proof.Proof.Gen.KernelIdeal.Launch
import proofs.«111017_j1546188226841_2_alg».proof.Proof.Gen.KernelIdeal.Points
import proofs.«111017_j1546188226841_2_alg».proof.Proof.Gen.KernelIdeal.Frame
import proofs.«111017_j1546188226841_2_alg».proof.Proof.Gen.ReferenceIdeal
import proofs.«111017_j1546188226841_2_alg».proof.Proof.Gen.Pre_finite_inputs
import proofs.«111017_j1546188226841_2_alg».proof.Proof.Gen.ReferenceIdeal.Run
import proofs.«111017_j1546188226841_2_alg».proof.Proof.Gen.ReferenceIdeal.Read
import proofs.«111017_j1546188226841_2_alg».proof.Proof.Silu
import proofs.«111017_j1546188226841_2_alg».proof.Proof.ReferenceSilu
import proofs.«111017_j1546188226841_2_alg».proof.Proof.KernelBlocks
import proofs.«111017_j1546188226841_2_alg».proof.Proof.KernelRun
import Idealize.ShloMosaic.Adequacy
import Idealize.ShloMosaic.Init

noncomputable section

namespace Cert.Proof

open Idealize.ShloMosaic Idealize.SL.Sem

/-- The kernel as printed terminates, faults nowhere and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations: there is nothing to state. -/
theorem preserves : Cert.preserves_Kernel_KernelIdeal := trivial

/-- From arguments that agree, the kernel's result is x · σ(x) of its argument (its run, Proof/KernelRun.lean) and the
    reference's is x · (1 / (1 + e^(-x))) of the same array (its run), which is x · σ(x) index by index
    (Proof/ReferenceSilu.lean): one array. -/
theorem algebraic : Cert.algebraic_KernelIdeal_ReferenceIdeal := by
  intro m ρ m' ρ' _ hagree
  refine ⟨fun c => Cert.Silu.silu
      (m ((c.tc : Thread Cert.KernelIdeal.nD Cert.KernelIdeal.τ).loc Cert.KernelIdeal.main_arg0)),
    Cert.KernelIdeal.SiluValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefSilu.result_is_silu, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
